-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S257x192 : Shape := ⟨2, ![257, 192]⟩
abbrev S192 : Shape := ⟨1, ![192]⟩
abbrev S192x128 : Shape := ⟨2, ![192, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S257x192 : S_.BroadcastsInDim S257x192 (![] : Fin 0 → Fin S257x192.rank)
  reducesTo_S257x192_S_d0_1 : S257x192.ReducesTo [0, 1] S_
  bcast_S_S192 : S_.BroadcastsInDim S192 (![] : Fin 0 → Fin S192.rank)
  reducesTo_S192_S_d0 : S192.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S192x128 .f32) (main_arg7 : FVec F S128 .f32) (main_v13 : IVec S_ 1) (main_v16 : IVec S192 1) : IVec S_ 1 :=
  let main_c_5 : IVec S_ 1 := constantI S_ 1 1#1
  let main_v17 : IVec S_ 1 := (fun x v => Host.reduce IntOp.andi x v reducesTo_S192_S_d0 h_S_) main_v16 main_c_5
  let main_v18 : IVec S_ 1 := andi main_v13 main_v17
  let main_v19 : FVec F S192x128 .f32 := Host.absf main_arg6
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S640000 .f32) (main_arg2 : IVec S640000 32) (main_arg3 : IVec S640000 32) (main_arg4 : FVec F S257x192 .f32) (main_arg5 : FVec F S192 .f32) (main_arg6 : FVec F S192x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S257x192 .f32 := Host.absf main_arg4
  let main_cst_2 : FVec F S_ .f32 := constant S_ .f32 0x7F800000#32
  let main_v10 : FVec F S257x192 .f32 := broadcastInDim S257x192 ![] bcast_S_S257x192 main_cst_2
  let main_v11 : IVec S257x192 1 := cmpf .olt main_v9 main_v10
  let main_c_3 : IVec S_ 1 := constantI S_ 1 1#1
  let main_v12 : IVec S_ 1 := (fun x v => Host.reduce IntOp.andi x v reducesTo_S257x192_S_d0_1 h_S_) main_v11 main_c_3
  let main_v13 : IVec S_ 1 := andi main_v8 main_v12
  let main_v14 : FVec F S192 .f32 := Host.absf main_arg5
  let main_cst_4 : FVec F S_ .f32 := constant S_ .f32 0x7F800000#32
  let main_v15 : FVec F S192 .f32 := broadcastInDim S192 ![] bcast_S_S192 main_cst_4
  let main_v16 : IVec S192 1 := cmpf .olt main_v14 main_v15
  fn_part1 (F := F) main_arg6 main_arg7 main_v13 main_v16
-- ==== Kernel.lean ====
abbrev S100000x128 : Shape := ⟨2, ![100000, 128]⟩
abbrev S640000 : Shape := ⟨1, ![640000]⟩
abbrev S257x192 : Shape := ⟨2, ![257, 192]⟩
abbrev S192 : Shape := ⟨1, ![192]⟩
abbrev S192x128 : Shape := ⟨2, ![192, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S128x192 : Shape := ⟨2, ![128, 192]⟩
abbrev S1x192 : Shape := ⟨2, ![1, 192]⟩
abbrev S1x128 : Shape := ⟨2, ![1, 128]⟩
abbrev S6400x128 : Shape := ⟨2, ![6400, 128]⟩
abbrev S6400x1 : Shape := ⟨2, ![6400, 1]⟩
abbrev S6400x192 : Shape := ⟨2, ![6400, 192]⟩

abbrev nBuf : Space → Nat
  | .hbm => 38
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S640000, .f32⟩
  | .hbm, ⟨2, _⟩ => ⟨S640000, .i32⟩
  | .hbm, ⟨3, _⟩ => ⟨S640000, .i32⟩
  | .hbm, ⟨4, _⟩ => ⟨S257x192, .f32⟩
  | .hbm, ⟨5, _⟩ => ⟨S192, .f32⟩
  | .hbm, ⟨6, _⟩ => ⟨S192x128, .f32⟩
  | .hbm, ⟨7, _⟩ => ⟨S128, .f32⟩
  | .hbm, ⟨8, _⟩ => ⟨S100000x128, .bf16⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .bf16⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .bf16⟩
  | .hbm, ⟨27, _⟩ => ⟨S640000, .bf16⟩
  | .hbm, ⟨28, _⟩ => ⟨S640000x1, .bf16⟩
  | .hbm, ⟨29, _⟩ => ⟨S128x192, .f32⟩
  | .hbm, ⟨30, _⟩ => ⟨S128x192, .bf16⟩
  | .hbm, ⟨31, _⟩ => ⟨S128x192, .f32⟩
  | .hbm, ⟨32, _⟩ => ⟨S128x192, .bf16⟩
  | .hbm, ⟨33, _⟩ => ⟨S1x192, .f32⟩
  | .hbm, ⟨34, _⟩ => ⟨S192x128, .bf16⟩
  | .hbm, ⟨35, _⟩ => ⟨S1x192, .f32⟩
  | .hbm, ⟨36, _⟩ => ⟨S1x128, .f32⟩
  | .hbm, ⟨37, _⟩ => ⟨S640000x128, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S6400x1, .bf16⟩
  | .local _ .vmem, ⟨5, _⟩ => ⟨S6400x1, .bf16⟩
  | .local _ .vmem, ⟨6, _⟩ => ⟨S128x192, .bf16⟩
  | .local _ .vmem, ⟨7, _⟩ => ⟨S128x192, .bf16⟩
  | .local _ .vmem, ⟨8, _⟩ => ⟨S1x192, .f32⟩
  | .local _ .vmem, ⟨9, _⟩ => ⟨S1x192, .f32⟩
  | .local _ .vmem, ⟨10, _⟩ => ⟨S192x128, .bf16⟩
  | .local _ .vmem, ⟨11, _⟩ => ⟨S1x128, .f32⟩
  | .local _ .vmem, ⟨12, _⟩ => ⟨S6400x128, .f32⟩
  | .local _ .vmem, ⟨13, _⟩ => ⟨S6400x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S257x192_S128x192_0_0 : S257x192.Slices ![0, 0] S128x192
  slices_S257x192_S128x192_128_0 : S257x192.Slices ![128, 0] S128x192
  slices_S257x192_S1x192_256_0 : S257x192.Slices ![256, 0] S1x192
  shapeCasts_S192_S1x192 : S192.ShapeCasts S1x192
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S6400x1_S6400x192 : S6400x1.Broadcasts S6400x192
  broadcasts_S1x192_S6400x192 : S1x192.Broadcasts S6400x192
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  gather_S100000x128_S640000x1_S640000x128_1_0_n_n_0_1_1128_wf : GatherDims.WF S100000x128 S640000x1 S640000x128 [1] [0] [] [0] [] 1 ![1, 128]
  dot_S6400x128_S128x192_S6400x192_1_0_0_1_n_n_wf : DotDims.WF S6400x128 S128x192 S6400x192 [1] [0] [0] [1] [] []
  dot_S6400x192_S192x128_S6400x128_1_0_0_1_n_n_wf : DotDims.WF S6400x192 S192x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .bf16 = 32 ∨ (Rect.block (s := S640000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .bf16 = 32 ∨ (Rect.block (s := S640000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S640000x1.size a
  hwx0_2 : ∀ i : grid0.Coords, EltTy.bits .bf16 = 32 ∨ (Rect.block (s := S640000x1) S6400x1.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x192.size a ≤ S128x192.size a
  hwx0_3 : ∀ i : grid0.Coords, EltTy.bits .bf16 = 32 ∨ (Rect.block (s := S128x192) S128x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x192.size a ≤ S128x192.size a
  hwx0_4 : ∀ i : grid0.Coords, EltTy.bits .bf16 = 32 ∨ (Rect.block (s := S128x192) S128x192.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x192.size a ≤ S1x192.size a
  hwx0_5 : ∀ i : grid0.Coords, EltTy.bits .f32 = 32 ∨ (Rect.block (s := S1x192) S1x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x192.size a ≤ S1x192.size a
  hwx0_6 : ∀ i : grid0.Coords, EltTy.bits .f32 = 32 ∨ (Rect.block (s := S1x192) S1x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x128.size a ≤ S192x128.size a
  hwx0_7 : ∀ i : grid0.Coords, EltTy.bits .bf16 = 32 ∨ (Rect.block (s := S192x128) S192x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x128.size a ≤ S640000x128.size a
  hwx0_9 : ∀ i : grid0.Coords, EltTy.bits .f32 = 32 ∨ (Rect.block (s := S640000x128) S6400x128.size (cc0_transform_9 i) (hinb0_9 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S6400x128_S128x192_S6400x192_1_0_0_1_n_n : DotDims S6400x128 S128x192 S6400x192 where
  lhsContracting := [1]
  rhsContracting := [0]
  lhsNonContracting := [0]
  rhsNonContracting := [1]
  lhsBatch := []
  rhsBatch := []
  wf := dot_S6400x128_S128x192_S6400x192_1_0_0_1_n_n_wf
def dot_S6400x192_S192x128_S6400x128_1_0_0_1_n_n : DotDims S6400x192 S192x128 S6400x128 where
  lhsContracting := [1]
  rhsContracting := [0]
  lhsNonContracting := [0]
  rhsNonContracting := [1]
  lhsBatch := []
  rhsBatch := []
  wf := dot_S6400x192_S192x128_S6400x128_1_0_0_1_n_n_wf

abbrev win0_0 : Pipeline.Window sig grid0 :=
  Pipeline.Window.ofSpec (Memref.whole main_v7) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S192x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S6400x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S257x192 : Shape := ⟨2, ![257, 192]⟩
abbrev S192 : Shape := ⟨1, ![192]⟩
abbrev S192x128 : Shape := ⟨2, ![192, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S640000x257 : Shape := ⟨2, ![640000, 257]⟩
abbrev S640000x192 : Shape := ⟨2, ![640000, 192]⟩
abbrev S1x192 : Shape := ⟨2, ![1, 192]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .f32⟩
  | .hbm, ⟨2, _⟩ => ⟨S640000, .i32⟩
  | .hbm, ⟨3, _⟩ => ⟨S640000, .i32⟩
  | .hbm, ⟨4, _⟩ => ⟨S257x192, .f32⟩
  | .hbm, ⟨5, _⟩ => ⟨S192, .f32⟩
  | .hbm, ⟨6, _⟩ => ⟨S192x128, .f32⟩
  | .hbm, ⟨7, _⟩ => ⟨S128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x1, .f32⟩
  | .hbm, ⟨27, _⟩ => ⟨S640000x257, .f32⟩
  | .hbm, ⟨28, _⟩ => ⟨S640000x192, .f32⟩
  | .hbm, ⟨29, _⟩ => ⟨S1x192, .f32⟩
  | .hbm, ⟨30, _⟩ => ⟨S640000x192, .f32⟩
  | .hbm, ⟨31, _⟩ => ⟨S640000x192, .f32⟩
  | .hbm, ⟨32, _⟩ => ⟨S_, .f32⟩
  | .hbm, ⟨33, _⟩ => ⟨S640000x192, .f32⟩
  | .hbm, ⟨34, _⟩ => ⟨S640000x192, .f32⟩
  | .hbm, ⟨35, _⟩ => ⟨S640000x128, .f32⟩
  | .hbm, ⟨36, _⟩ => ⟨S1x128, .f32⟩
  | .hbm, ⟨37, _⟩ => ⟨S640000x128, .f32⟩
  | .hbm, ⟨38, _⟩ => ⟨S640000x128, .f32⟩
  | .hbm, ⟨39, _⟩ => ⟨S640000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x1_S640000x257_d1 : Shape.Concatenates [S640000x128, S640000x128, S640000x1] S640000x257 1
  bcast_S192_S1x192_1 : S192.BroadcastsInDim S1x192 (![1] : Fin 1 → Fin S1x192.rank)
  bcast_S1x192_S640000x192_0_1 : S1x192.BroadcastsInDim S640000x192 (![0, 1] : Fin 2 → Fin S640000x192.rank)
  bcast_S_S640000x192 : S_.BroadcastsInDim S640000x192 (![] : Fin 0 → Fin S640000x192.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  gather_S100000x128_S640000x1_S640000x128_1_0_n_n_0_1_1128_wf : GatherDims.WF S100000x128 S640000x1 S640000x128 [1] [0] [] [0] [] 1 ![1, 128]
  dot_S640000x257_S257x192_S640000x192_1_0_0_1_n_n_wf : DotDims.WF S640000x257 S257x192 S640000x192 [1] [0] [0] [1] [] []
  dot_S640000x192_S192x128_S640000x128_1_0_0_1_n_n_wf : DotDims.WF S640000x192 S192x128 S640000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x257_S257x192_S640000x192_1_0_0_1_n_n : DotDims S640000x257 S257x192 S640000x192 where
  lhsContracting := [1]
  rhsContracting := [0]
  lhsNonContracting := [0]
  rhsNonContracting := [1]
  lhsBatch := []
  rhsBatch := []
  wf := dot_S640000x257_S257x192_S640000x192_1_0_0_1_n_n_wf
def dot_S640000x192_S192x128_S640000x128_1_0_0_1_n_n : DotDims S640000x192 S192x128 S640000x128 where
  lhsContracting := [1]
  rhsContracting := [0]
  lhsNonContracting := [0]
  rhsNonContracting := [1]
  lhsBatch := []
  rhsBatch := []
  wf := dot_S640000x192_S192x128_S640000x128_1_0_0_1_n_n_wf

class Facts : Prop extends Facts₀ where

variable [Facts]
-- ==== Proof.Spec.lean ====
/-
  The edge network as one function of its arrays, over the extended reals.

  For an edge `e` with gathered endpoint rows `D e` and `S e` (128 features each) and edge scalar `r e`, the
  hidden layer is `relu (D e · W1[0:128] + S e · W1[128:256] + r e · W1[256] + b1)` (192 units) and the output is
  `tanh (hidden · W2 + b2)` (128 units). `out` states this index by index; `blockOut` states the same function of
  one block of 6400 edges and the whole weight arrays, which is what one grid point computes.

  The reference forms the 257-long row `[D e, S e, r e]` and takes ONE product with all of `W1`. The only law
  between the two arrangements is that a sum over 257 terms is the sum of its first 128 terms, its next 128 terms
  and its last term (`sum_257_split`): associativity and commutativity of addition, which hold on the extended
  reals without any finiteness assumption.
-/
import Idealize.ShloMosaic.PureOps.Ideal
import Idealize.ShloMosaic.Lib.ValueIdx

noncomputable section

namespace Cert.EdgeMlp

open Idealize.ShloMosaic Idealize.ShloMosaic.ValueIdx

/-- A matrix of extended reals with literal extents. -/
abbrev Mat (a b : ℕ) : Type := (⟨2, ![a, b]⟩ : Shape).Idx → EReal
/-- A vector of extended reals with a literal extent. -/
abbrev Arr (a : ℕ) : Type := (⟨1, ![a]⟩ : Shape).Idx → EReal

/-- Row `a` of the first 128 rows of `W1`. -/
abbrev rowLo (a : Fin 128) : Fin 257 := ⟨a.val, by omega⟩
/-- Row `128 + a` of `W1`: the second band of 128 rows. -/
abbrev rowMid (a : Fin 128) : Fin 257 := ⟨128 + a.val, by omega⟩
/-- The last row, 256, of `W1`. -/
abbrev rowLast : Fin 257 := ⟨256, by omega⟩

/-- The zero the rectifier compares with: the f32 word of `0.0`, the same word in both programs. -/
abbrev zeroWord : EReal := Ideal.ofBits .f32 0x00000000#32

/-- Hidden unit `k` of edge `e`. -/
def hidden (D S : Mat 640000 128) (r : Arr 640000) (W1 : Mat 257 192) (b1 : Arr 192) (e : Fin 640000) (k : Fin 192) : EReal :=
  max ((((∑ a : Fin 128, D (ix2 e a) * W1 (ix2 (rowLo a) k)) + (∑ a : Fin 128, S (ix2 e a) * W1 (ix2 (rowMid a) k)))
    + r (ix1 e) * W1 (ix2 rowLast k)) + b1 (ix1 k)) zeroWord

/-- Output unit `q` of edge `e`. -/
def outAt (D S : Mat 640000 128) (r : Arr 640000) (W1 : Mat 257 192) (b1 : Arr 192) (W2 : Mat 192 128) (b2 : Arr 128)
    (e : Fin 640000) (q : Fin 128) : EReal :=
  Ideal.tanh ((∑ k : Fin 192, hidden D S r W1 b1 e k * W2 (ix2 k q)) + b2 (ix1 q))

/-- The whole result array. -/
def out (D S : Mat 640000 128) (r : Arr 640000) (W1 : Mat 257 192) (b1 : Arr 192) (W2 : Mat 192 128) (b2 : Arr 128) :
    Mat 640000 128 :=
  fun i => outAt D S r W1 b1 W2 b2 (i 0) (i 1)

theorem out_apply (D S : Mat 640000 128) (r : Arr 640000) (W1 : Mat 257 192) (b1 : Arr 192) (W2 : Mat 192 128) (b2 : Arr 128)
    (e : Fin 640000) (q : Fin 128) : out D S r W1 b1 W2 b2 (ix2 e q) = outAt D S r W1 b1 W2 b2 e q := rfl

/-- What one grid point computes from its blocks: rows `p` of the two gathered blocks `x0`, `x1` and of the
    scalar column `x2`, against the two 128-row bands `x3`, `x4` and the last row `x5` of the first weight matrix,
    the bias row `x6`, the second weight matrix `x7` and its bias row `x8`. -/
def blockHidden (x0 x1 : Mat 6400 128) (x2 : Mat 6400 1) (x3 x4 : Mat 128 192) (x5 x6 : Mat 1 192) (p : Fin 6400) (k : Fin 192) : EReal :=
  max ((((∑ a : Fin 128, x0 (ix2 p a) * x3 (ix2 a k)) + (∑ a : Fin 128, x1 (ix2 p a) * x4 (ix2 a k)))
    + x2 (ix2 p (0 : Fin 1)) * x5 (ix2 (0 : Fin 1) k)) + x6 (ix2 (0 : Fin 1) k)) zeroWord

def blockOut (x0 x1 : Mat 6400 128) (x2 : Mat 6400 1) (x3 x4 : Mat 128 192) (x5 x6 : Mat 1 192) (x7 : Mat 192 128) (x8 : Mat 1 128)
    (p : Fin 6400) (q : Fin 128) : EReal :=
  Ideal.tanh ((∑ k : Fin 192, blockHidden x0 x1 x2 x3 x4 x5 x6 p k * x7 (ix2 k q)) + x8 (ix2 (0 : Fin 1) q))

/-- A sum of 257 terms is its first 128 terms, its next 128 terms and its last term, in any additive commutative
    monoid (so also on the extended reals, infinities included). -/
theorem sum_257_split {M : Type*} [AddCommMonoid M] (f : Fin 257 → M) :
    ∑ k : Fin 257, f k = ((∑ a : Fin 128, f (rowLo a)) + (∑ a : Fin 128, f (rowMid a))) + f rowLast := by
  have h : ∑ k : Fin (128 + 128 + 1), f k = ((∑ a : Fin 128, f (rowLo a)) + (∑ a : Fin 128, f (rowMid a))) + f rowLast := by
    rw [Fin.sum_univ_castSucc, Fin.sum_univ_add]
    rfl
  exact h

end Cert.EdgeMlp

end
-- ==== Proof.Entry.lean ====
/-
  What the kernel's operand arrays hold when the grid starts, and the blocks a grid point reads from them.

  Before the grid runs, the host gathers the rows of the node features named by the (wrapped) destination and source
  indices, turns the edge scalars into a one-column matrix, cuts the first weight matrix into its two 128-row bands and
  its last row, and gives the two bias vectors a leading unit axis. Over the extended reals the changes of float
  format in between are the identity. Each of these arrays is read here at an entry in terms of the program's
  arguments; the two gathered arrays are kept as they are (`gathered`), since the reference gathers in the same way.
-/
import proofs.«149464_j34196529611289_2_alg».proof.Proof.Gen.KernelIdeal.Frame
import proofs.«149464_j34196529611289_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Entry

open Cert.KernelIdeal Cert.KernelIdeal.Gen Cert.EdgeMlp Idealize.ShloMosaic Idealize.ShloMosaic.TcCoe Idealize.SL.Sem
open Idealize.ShloMosaic.ValueIdx Idealize.ShloMosaic.StableHlo

variable (m : (ℓ : Loc nD τ sig) → Buf (Elt Ideal) ℓ)

/-- An index array with negative entries wrapped around by the number of nodes, as a one-column matrix: what the
    gather is given. -/
def wrapped (x : IVec S640000 32) : IVec S640000x1 32 :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 100000#32))) x)

/-- The rows of the node features `h` named by the index array `x`. -/
def gathered (h : S100000x128.Idx → EReal) (x : IVec S640000 32) : S640000x128.Idx → EReal :=
  Host.gather gather_S100000x128_S640000x1_S640000x128_1_0_n_n_0_1_1128 h (wrapped x)

/-- The gathered destination rows: operand 0 of the kernel. -/
theorem V_dst (c : Dev nD) : (V m c main_v7 : S640000x128.Idx → EReal)
    = gathered (m ((c.tc : Thread nD τ).loc main_arg0)) (m ((c.tc : Thread nD τ).loc main_arg3)) := by
  dsimp only [Gen.V, Gen.hostOps0]; after_results <;> rfl

/-- The gathered source rows: operand 1. -/
theorem V_src (c : Dev nD) : (V m c main_v14 : S640000x128.Idx → EReal)
    = gathered (m ((c.tc : Thread nD τ).loc main_arg0)) (m ((c.tc : Thread nD τ).loc main_arg2)) := by
  dsimp only [Gen.V, Gen.hostOps0]; after_results <;> rfl

/-- The edge scalars as a one-column matrix: operand 2. -/
theorem V_col (c : Dev nD) : (V m c main_v16 : S640000x1.Idx → EReal)
    = broadcastInDim S640000x1 ![0] bcast_S640000_S640000x1_0 (m ((c.tc : Thread nD τ).loc main_arg1) : S640000.Idx → EReal) := by
  dsimp only [Gen.V, Gen.hostOps0]; after_results <;> rfl

/-- Rows 0 … 127 of the first weight matrix: operand 3. -/
theorem V_bandLo (c : Dev nD) : (V m c main_v18 : S128x192.Idx → EReal)
    = extractStridedSlice S128x192 ![0, 0] (m ((c.tc : Thread nD τ).loc main_arg4) : S257x192.Idx → EReal) slices_S257x192_S128x192_0_0 := by
  dsimp only [Gen.V, Gen.hostOps0]; after_results <;> rfl

/-- Rows 128 … 255 of the first weight matrix: operand 4. -/
theorem V_bandMid (c : Dev nD) : (V m c main_v20 : S128x192.Idx → EReal)
    = extractStridedSlice S128x192 ![128, 0] (m ((c.tc : Thread nD τ).loc main_arg4) : S257x192.Idx → EReal) slices_S257x192_S128x192_128_0 := by
  dsimp only [Gen.V, Gen.hostOps0]; after_results <;> rfl

/-- Row 256 of the first weight matrix: operand 5. -/
theorem V_rowLast (c : Dev nD) : (V m c main_v21 : S1x192.Idx → EReal)
    = extractStridedSlice S1x192 ![256, 0] (m ((c.tc : Thread nD τ).loc main_arg4) : S257x192.Idx → EReal) slices_S257x192_S1x192_256_0 := by
  dsimp only [Gen.V, Gen.hostOps0]; after_results <;> rfl

/-- The first bias as one row: operand 6. -/
theorem V_bias1 (c : Dev nD) : (V m c main_v23 : S1x192.Idx → EReal)
    = shapeCast S1x192 (m ((c.tc : Thread nD τ).loc main_arg5) : S192.Idx → EReal) shapeCasts_S192_S1x192 := by
  dsimp only [Gen.V, Gen.hostOps0]; after_results <;> rfl

/-- The second weight matrix: operand 7. -/
theorem V_w2 (c : Dev nD) : (V m c main_v22 : S192x128.Idx → EReal) = m ((c.tc : Thread nD τ).loc main_arg6) := by
  dsimp only [Gen.V, Gen.hostOps0]; after_results <;> rfl

/-- The second bias as one row: operand 8. -/
theorem V_bias2 (c : Dev nD) : (V m c main_v24 : S1x128.Idx → EReal)
    = shapeCast S1x128 (m ((c.tc : Thread nD τ).loc main_arg7) : S128.Idx → EReal) shapeCasts_S128_S1x128 := by
  dsimp only [Gen.V, Gen.hostOps0]; after_results <;> rfl

end Cert.KernelIdeal.Entry

end
-- ==== Proof.Windows.lean ====
/-
  The blocks one grid point reads, entry by entry, in terms of the program's arguments.

  Grid point `t` (of 100) reads rows `6400 t … 6400 t + 6399` of the two gathered arrays and of the scalar column,
  and the whole of the six small arrays (the two bands and the last row of the first weight matrix, the two bias rows,
  the second weight matrix). An entry of a block is the entry of its array at block index × block extent + the
  coordinate inside the block, on each axis.
-/
import proofs.«149464_j34196529611289_2_alg».proof.Proof.Entry
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Cert.EdgeMlp Idealize.ShloMosaic Idealize.ShloMosaic.TcCoe Idealize.SL.Sem
open Idealize.ShloMosaic.ValueIdx

variable (m : (ℓ : Loc nD τ sig) → Buf (Elt Ideal) ℓ)

/-- The block index of every window at every grid point: the three edge-tiled inputs and the output move along the
    rows with the point, the six small operands stay at block (0, 0). Decided over the 100 points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Row `p` of the destination block at point `t` is row `6400 t + p` of the gathered destination rows. -/
theorem blk0_apply (c : Dev nD) (t : Fin cfg0.N) (p : Fin 6400) (a : Fin 128) (e : Fin 640000) (he : e.val = t.val * 6400 + p.val) :
    (iblk m c 0 t : Vec Ideal S6400x128 .bf16) (ix2 p a)
      = gathered (m ((c.tc : Thread nD τ).loc main_arg0)) (m ((c.tc : Thread nD τ).loc main_arg3)) (ix2 e a) := by
  obtain ⟨⟨h0, h1⟩, -⟩ := idx_facts t
  rw [← V_dst m c]
  unfold iblk
  rw [View.read_apply]
  show (V m c main_v7 : S640000x128.Idx → EReal) _ = _
  refine congrArg (V m c main_v7 : S640000x128.Idx → EReal) (funext fun x => Fin.ext ?_)
  match x with
  | ⟨0, _⟩ => show win0_0.index t (0 : Fin 2) * 6400 + 1 * p.val = e.val; rw [h0, he]; omega
  | ⟨1, _⟩ => show win0_0.index t (1 : Fin 2) * 128 + 1 * a.val = a.val; rw [h1]; omega

/-- Row `p` of the source block at point `t` is row `6400 t + p` of the gathered source rows. -/
theorem blk1_apply (c : Dev nD) (t : Fin cfg0.N) (p : Fin 6400) (a : Fin 128) (e : Fin 640000) (he : e.val = t.val * 6400 + p.val) :
    (iblk m c 1 t : Vec Ideal S6400x128 .bf16) (ix2 p a)
      = gathered (m ((c.tc : Thread nD τ).loc main_arg0)) (m ((c.tc : Thread nD τ).loc main_arg2)) (ix2 e a) := by
  obtain ⟨-, ⟨h0, h1⟩, -⟩ := idx_facts t
  rw [← V_src m c]
  unfold iblk
  rw [View.read_apply]
  show (V m c main_v14 : S640000x128.Idx → EReal) _ = _
  refine congrArg (V m c main_v14 : S640000x128.Idx → EReal) (funext fun x => Fin.ext ?_)
  match x with
  | ⟨0, _⟩ => show win0_1.index t (0 : Fin 2) * 6400 + 1 * p.val = e.val; rw [h0, he]; omega
  | ⟨1, _⟩ => show win0_1.index t (1 : Fin 2) * 128 + 1 * a.val = a.val; rw [h1]; omega

/-- Entry `p` of the scalar column's block at point `t` is the scalar of edge `6400 t + p`. -/
theorem blk2_apply (c : Dev nD) (t : Fin cfg0.N) (p : Fin 6400) (e : Fin 640000) (he : e.val = t.val * 6400 + p.val) :
    (iblk m c 2 t : Vec Ideal S6400x1 .bf16) (ix2 p (0 : Fin 1))
      = (m ((c.tc : Thread nD τ).loc main_arg1) : S640000.Idx → EReal) (ix1 e) := by
  obtain ⟨-, -, ⟨h0, h1⟩, -⟩ := idx_facts t
  have hcol : (V m c main_v16 : S640000x1.Idx → EReal) (ix2 e (0 : Fin 1))
      = (m ((c.tc : Thread nD τ).loc main_arg1) : S640000.Idx → EReal) (ix1 e) := by
    rw [V_col m c]
    refine broadcastInDim_apply _ bcast_S640000_S640000x1_0 _ (ix2 e (0 : Fin 1)) (ix1 e) (fun x => ?_)
    match x with
    | ⟨0, _⟩ => show e.val = if (640000 : Nat) = 1 then 0 else e.val; rw [if_neg (by decide)]
  rw [← hcol]
  unfold iblk
  rw [View.read_apply]
  show (V m c main_v16 : S640000x1.Idx → EReal) _ = _
  refine congrArg (V m c main_v16 : S640000x1.Idx → EReal) (funext fun x => Fin.ext ?_)
  match x with
  | ⟨0, _⟩ => show win0_2.index t (0 : Fin 2) * 6400 + 1 * p.val = e.val; rw [h0, he]; omega
  | ⟨1, _⟩ => show win0_2.index t (1 : Fin 2) * 1 + 1 * 0 = 0; rw [h1]

/-- The first band's block is the whole band: rows 0 … 127 of the first weight matrix. -/
theorem blk3_apply (c : Dev nD) (t : Fin cfg0.N) (a : Fin 128) (k : Fin 192) :
    (iblk m c 3 t : Vec Ideal S128x192 .bf16) (ix2 a k)
      = (m ((c.tc : Thread nD τ).loc main_arg4) : S257x192.Idx → EReal) (ix2 (rowLo a) k) := by
  obtain ⟨-, -, -, ⟨h0, h1⟩, -⟩ := idx_facts t
  have hband : (V m c main_v18 : S128x192.Idx → EReal) (ix2 a k)
      = (m ((c.tc : Thread nD τ).loc main_arg4) : S257x192.Idx → EReal) (ix2 (rowLo a) k) := by
    rw [V_bandLo m c]
    exact slice2_axis0_apply 0 _ slices_S257x192_S128x192_0_0 a k (rowLo a) (Nat.zero_add _).symm
  rw [← hband]
  unfold iblk
  rw [View.read_apply]
  show (V m c main_v18 : S128x192.Idx → EReal) _ = _
  refine congrArg (V m c main_v18 : S128x192.Idx → EReal) (funext fun x => Fin.ext ?_)
  match x with
  | ⟨0, _⟩ => show win0_3.index t (0 : Fin 2) * 128 + 1 * a.val = a.val; rw [h0]; omega
  | ⟨1, _⟩ => show win0_3.index t (1 : Fin 2) * 192 + 1 * k.val = k.val; rw [h1]; omega

/-- The second band's block is the whole band: rows 128 … 255 of the first weight matrix. -/
theorem blk4_apply (c : Dev nD) (t : Fin cfg0.N) (a : Fin 128) (k : Fin 192) :
    (iblk m c 4 t : Vec Ideal S128x192 .bf16) (ix2 a k)
      = (m ((c.tc : Thread nD τ).loc main_arg4) : S257x192.Idx → EReal) (ix2 (rowMid a) k) := by
  obtain ⟨-, -, -, -, ⟨h0, h1⟩, -⟩ := idx_facts t
  have hband : (V m c main_v20 : S128x192.Idx → EReal) (ix2 a k)
      = (m ((c.tc : Thread nD τ).loc main_arg4) : S257x192.Idx → EReal) (ix2 (rowMid a) k) := by
    rw [V_bandMid m c]
    exact slice2_axis0_apply 128 _ slices_S257x192_S128x192_128_0 a k (rowMid a) rfl
  rw [← hband]
  unfold iblk
  rw [View.read_apply]
  show (V m c main_v20 : S128x192.Idx → EReal) _ = _
  refine congrArg (V m c main_v20 : S128x192.Idx → EReal) (funext fun x => Fin.ext ?_)
  match x with
  | ⟨0, _⟩ => show win0_4.index t (0 : Fin 2) * 128 + 1 * a.val = a.val; rw [h0]; omega
  | ⟨1, _⟩ => show win0_4.index t (1 : Fin 2) * 192 + 1 * k.val = k.val; rw [h1]; omega

/-- The last-row block is row 256 of the first weight matrix. -/
theorem blk5_apply (c : Dev nD) (t : Fin cfg0.N) (k : Fin 192) :
    (iblk m c 5 t : Vec Ideal S1x192 .f32) (ix2 (0 : Fin 1) k)
      = (m ((c.tc : Thread nD τ).loc main_arg4) : S257x192.Idx → EReal) (ix2 rowLast k) := by
  obtain ⟨-, -, -, -, -, ⟨h0, h1⟩, -⟩ := idx_facts t
  have hrow : (V m c main_v21 : S1x192.Idx → EReal) (ix2 (0 : Fin 1) k)
      = (m ((c.tc : Thread nD τ).loc main_arg4) : S257x192.Idx → EReal) (ix2 rowLast k) := by
    rw [V_rowLast m c]
    exact slice2_axis0_apply 256 _ slices_S257x192_S1x192_256_0 (0 : Fin 1) k rowLast rfl
  rw [← hrow]
  unfold iblk
  rw [View.read_apply]
  show (V m c main_v21 : S1x192.Idx → EReal) _ = _
  refine congrArg (V m c main_v21 : S1x192.Idx → EReal) (funext fun x => Fin.ext ?_)
  match x with
  | ⟨0, _⟩ => show win0_5.index t (0 : Fin 2) * 1 + 1 * 0 = 0; rw [h0]
  | ⟨1, _⟩ => show win0_5.index t (1 : Fin 2) * 192 + 1 * k.val = k.val; rw [h1]; omega

/-- The first bias row's block is the first bias. -/
theorem blk6_apply (c : Dev nD) (t : Fin cfg0.N) (k : Fin 192) :
    (iblk m c 6 t : Vec Ideal S1x192 .f32) (ix2 (0 : Fin 1) k)
      = (m ((c.tc : Thread nD τ).loc main_arg5) : S192.Idx → EReal) (ix1 k) := by
  obtain ⟨-, -, -, -, -, -, ⟨h0, h1⟩, -⟩ := idx_facts t
  have hrow : (V m c main_v23 : S1x192.Idx → EReal) (ix2 (0 : Fin 1) k)
      = (m ((c.tc : Thread nD τ).loc main_arg5) : S192.Idx → EReal) (ix1 k) := by
    rw [V_bias1 m c]
    exact shapeCast_a_1a_apply _ shapeCasts_S192_S1x192 (0 : Fin 1) k
  rw [← hrow]
  unfold iblk
  rw [View.read_apply]
  show (V m c main_v23 : S1x192.Idx → EReal) _ = _
  refine congrArg (V m c main_v23 : S1x192.Idx → EReal) (funext fun x => Fin.ext ?_)
  match x with
  | ⟨0, _⟩ => show win0_6.index t (0 : Fin 2) * 1 + 1 * 0 = 0; rw [h0]
  | ⟨1, _⟩ => show win0_6.index t (1 : Fin 2) * 192 + 1 * k.val = k.val; rw [h1]; omega

/-- The second weight matrix's block is the whole matrix. -/
theorem blk7_apply (c : Dev nD) (t : Fin cfg0.N) (k : Fin 192) (q : Fin 128) :
    (iblk m c 7 t : Vec Ideal S192x128 .bf16) (ix2 k q)
      = (m ((c.tc : Thread nD τ).loc main_arg6) : S192x128.Idx → EReal) (ix2 k q) := by
  obtain ⟨-, -, -, -, -, -, -, ⟨h0, h1⟩, -⟩ := idx_facts t
  rw [← V_w2 m c]
  unfold iblk
  rw [View.read_apply]
  show (V m c main_v22 : S192x128.Idx → EReal) _ = _
  refine congrArg (V m c main_v22 : S192x128.Idx → EReal) (funext fun x => Fin.ext ?_)
  match x with
  | ⟨0, _⟩ => show win0_7.index t (0 : Fin 2) * 192 + 1 * k.val = k.val; rw [h0]; omega
  | ⟨1, _⟩ => show win0_7.index t (1 : Fin 2) * 128 + 1 * q.val = q.val; rw [h1]; omega

/-- The second bias row's block is the second bias. -/
theorem blk8_apply (c : Dev nD) (t : Fin cfg0.N) (q : Fin 128) :
    (iblk m c 8 t : Vec Ideal S1x128 .f32) (ix2 (0 : Fin 1) q)
      = (m ((c.tc : Thread nD τ).loc main_arg7) : S128.Idx → EReal) (ix1 q) := by
  obtain ⟨-, -, -, -, -, -, -, -, ⟨h0, h1⟩, -⟩ := idx_facts t
  have hrow : (V m c main_v24 : S1x128.Idx → EReal) (ix2 (0 : Fin 1) q)
      = (m ((c.tc : Thread nD τ).loc main_arg7) : S128.Idx → EReal) (ix1 q) := by
    rw [V_bias2 m c]
    exact shapeCast_a_1a_apply _ shapeCasts_S128_S1x128 (0 : Fin 1) q
  rw [← hrow]
  unfold iblk
  rw [View.read_apply]
  show (V m c main_v24 : S1x128.Idx → EReal) _ = _
  refine congrArg (V m c main_v24 : S1x128.Idx → EReal) (funext fun x => Fin.ext ?_)
  match x with
  | ⟨0, _⟩ => show win0_8.index t (0 : Fin 2) * 1 + 1 * 0 = 0; rw [h0]
  | ⟨1, _⟩ => show win0_8.index t (1 : Fin 2) * 128 + 1 * q.val = q.val; rw [h1]; omega

end Cert.KernelIdeal.Entry

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Payload.lean ====
/-
  What one grid point computes, read at an entry.

  The body multiplies the block of gathered destination rows by the first band of the first weight matrix, the block
  of gathered source rows by the second band, adds the two products, adds the edge scalar's column times the last
  weight row, adds the bias row, rectifies, multiplies by the second weight matrix, adds its bias row and applies
  tanh. Read at entry `(p, q)` over the extended reals, where every change of float format is the identity, each
  matrix product is the plain sum over the contracted coordinate and each broadcast repeats a row or a column:
  the result is `blockOut` of the loaded blocks.
-/
import proofs.«149464_j34196529611289_2_alg».proof.Proof.Gen.KernelIdeal.Skeleton
import proofs.«149464_j34196529611289_2_alg».proof.Proof.Spec
import proofs.«149464_j34196529611289_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.EdgeMlp Idealize.ShloMosaic Idealize.ShloMosaic.ValueIdx

local notation "D1" => dot_S6400x128_S128x192_S6400x192_1_0_0_1_n_n
local notation "D2" => dot_S6400x192_S192x128_S6400x128_1_0_0_1_n_n

/-! ## The two matrix products at an entry -/

theorem lhs1_0 (i : S6400x192.Idx) (z : (D1).contr.Idx) : ((D1).lhsIdx i z 0).val = (i 0).val := by
  unfold DotDims.lhsIdx
  rw [dif_neg (show ¬(0 : Fin S6400x128.rank) ∈ (D1).lhsBatch by decide), dif_pos (show (0 : Fin S6400x128.rank) ∈ (D1).lhsNonContracting by decide)]
  rfl
theorem lhs1_1 (i : S6400x192.Idx) (z : (D1).contr.Idx) : ((D1).lhsIdx i z 1).val = (z ⟨0, by decide⟩).val :=
  (D1).lhsIdx_val_of_single rfl i z
theorem rhs1_0 (i : S6400x192.Idx) (z : (D1).contr.Idx) : ((D1).rhsIdx i z 0).val = (z ⟨0, by decide⟩).val :=
  (D1).rhsIdx_val_of_single rfl i z
theorem rhs1_1 (i : S6400x192.Idx) (z : (D1).contr.Idx) : ((D1).rhsIdx i z 1).val = (i 1).val := by
  unfold DotDims.rhsIdx
  rw [dif_neg (show ¬(1 : Fin S128x192.rank) ∈ (D1).rhsBatch by decide), dif_pos (show (1 : Fin S128x192.rank) ∈ (D1).rhsNonContracting by decide)]
  rfl

/-- A [6400,128] block times a [128,192] band, accumulated from zero: entry `(p, k)` is the sum over the 128
    contracted coordinates of the products. -/
theorem product1_apply (l : FVec Ideal S6400x128 .bf16) (r : FVec Ideal S128x192 .bf16) (p : Fin 6400) (k : Fin 192) :
    matmul D1 none l r (constant (F := Ideal) S6400x192 .f32 0x00000000#32) (ix2 p k) = ∑ a : Fin 128, l (ix2 p a) * r (ix2 a k) := by
  simp only [matmul]
  rw [Ideal.matmul_constant_zero_apply, ← Equiv.sum_comp (ValueIdx.contrEquiv1 D1 128 rfl rfl).symm]
  refine Finset.sum_congr rfl fun a _ => ?_
  have hk := ValueIdx.contrEquiv1_symm_val D1 128 rfl rfl a
  have el : (D1).lhsIdx (ix2 p k) ((ValueIdx.contrEquiv1 D1 128 rfl rfl).symm a) = ix2 p a := funext fun x => Fin.ext (by
    match x with
    | ⟨0, _⟩ => exact lhs1_0 _ _
    | ⟨1, _⟩ => exact (lhs1_1 _ _).trans hk)
  have er : (D1).rhsIdx (ix2 p k) ((ValueIdx.contrEquiv1 D1 128 rfl rfl).symm a) = ix2 a k := funext fun x => Fin.ext (by
    match x with
    | ⟨0, _⟩ => exact (rhs1_0 _ _).trans hk
    | ⟨1, _⟩ => exact rhs1_1 _ _)
  rw [el, er]

theorem lhs2_0 (i : S6400x128.Idx) (z : (D2).contr.Idx) : ((D2).lhsIdx i z 0).val = (i 0).val := by
  unfold DotDims.lhsIdx
  rw [dif_neg (show ¬(0 : Fin S6400x192.rank) ∈ (D2).lhsBatch by decide), dif_pos (show (0 : Fin S6400x192.rank) ∈ (D2).lhsNonContracting by decide)]
  rfl
theorem lhs2_1 (i : S6400x128.Idx) (z : (D2).contr.Idx) : ((D2).lhsIdx i z 1).val = (z ⟨0, by decide⟩).val :=
  (D2).lhsIdx_val_of_single rfl i z
theorem rhs2_0 (i : S6400x128.Idx) (z : (D2).contr.Idx) : ((D2).rhsIdx i z 0).val = (z ⟨0, by decide⟩).val :=
  (D2).rhsIdx_val_of_single rfl i z
theorem rhs2_1 (i : S6400x128.Idx) (z : (D2).contr.Idx) : ((D2).rhsIdx i z 1).val = (i 1).val := by
  unfold DotDims.rhsIdx
  rw [dif_neg (show ¬(1 : Fin S192x128.rank) ∈ (D2).rhsBatch by decide), dif_pos (show (1 : Fin S192x128.rank) ∈ (D2).rhsNonContracting by decide)]
  rfl

/-- The [6400,192] hidden block times the [192,128] second weight matrix, accumulated from zero: entry `(p, q)` is
    the sum over the 192 hidden units of the products. -/
theorem product2_apply (l : FVec Ideal S6400x192 .bf16) (r : FVec Ideal S192x128 .bf16) (p : Fin 6400) (q : Fin 128) :
    matmul D2 none l r (constant (F := Ideal) S6400x128 .f32 0x00000000#32) (ix2 p q) = ∑ k : Fin 192, l (ix2 p k) * r (ix2 k q) := by
  simp only [matmul]
  rw [Ideal.matmul_constant_zero_apply, ← Equiv.sum_comp (ValueIdx.contrEquiv1 D2 192 rfl rfl).symm]
  refine Finset.sum_congr rfl fun a _ => ?_
  have hk := ValueIdx.contrEquiv1_symm_val D2 192 rfl rfl a
  have el : (D2).lhsIdx (ix2 p q) ((ValueIdx.contrEquiv1 D2 192 rfl rfl).symm a) = ix2 p a := funext fun x => Fin.ext (by
    match x with
    | ⟨0, _⟩ => exact lhs2_0 _ _
    | ⟨1, _⟩ => exact (lhs2_1 _ _).trans hk)
  have er : (D2).rhsIdx (ix2 p q) ((ValueIdx.contrEquiv1 D2 192 rfl rfl).symm a) = ix2 a q := funext fun x => Fin.ext (by
    match x with
    | ⟨0, _⟩ => exact (rhs2_0 _ _).trans hk
    | ⟨1, _⟩ => exact rhs2_1 _ _)
  rw [el, er]

/-! ## The whole payload at an entry -/

/-- The value the body stores, at entry `(p, q)` of the block: `blockOut` of the loaded blocks. -/
theorem pay_apply (v0 v2 : Vec Ideal S6400x128 .bf16) (v4 v6 : Vec Ideal S128x192 .bf16) (v11 : Vec Ideal S6400x1 .bf16)
    (v14 v20 : Vec Ideal S1x192 .f32) (v27 : Vec Ideal S192x128 .bf16) (v30 : Vec Ideal S1x128 .f32) (p : Fin 6400) (q : Fin 128) :
    k0_pay1 (F := Ideal) v0 v2 v4 v6 v11 v14 v20 v27 v30 (ix2 p q) = blockOut v0 v2 v11 v4 v6 v14 v20 v27 v30 p q := by
  unfold k0_pay1
  simp only [shapeCast_self]
  unfold blockOut
  refine congrArg Ideal.tanh ?_
  refine congrArg₂ (· + ·) ?_ (broadcastTo_1b_ab_apply v30 _ p q)
  refine (product2_apply _ v27 p q).trans ?_
  refine Finset.sum_congr rfl fun k _ => ?_
  refine congrArg (· * v27 (ix2 k q)) ?_
  unfold blockHidden
  refine congrArg₂ max ?_ rfl
  refine congrArg₂ (· + ·) (congrArg₂ (· + ·) (congrArg₂ (· + ·) (product1_apply v0 v4 p k) (product1_apply v2 v6 p k)) ?_) (broadcastTo_1b_ab_apply v20 _ p k)
  refine congrArg₂ (· * ·) ?_ (broadcastTo_1b_ab_apply v14 _ p k)
  exact Cert.Lib.Column.broadcastTo_a1_ab_apply _ _ p k

end Cert.KernelIdeal.Body

end
-- ==== Proof.KernelValue.lean ====
/-
  The kernel's result array as one function of the program's arguments.

  Grid point `t` writes back rows `6400 t … 6400 t + 6399` of the result. Each entry it writes is `blockOut` of the
  point's blocks; the blocks are rows of the gathered arrays, of the scalar column and the whole small arrays, so
  the entry is `Cert.EdgeMlp.out` of the arguments at the entry's own row and column (`point_eq`). The 100 blocks
  tile the 640000 rows (row `r` lies in the block of point `r / 6400`), hence the whole array ends at `result`.
-/
import proofs.«149464_j34196529611289_2_alg».proof.Proof.Gen.KernelIdeal.Value
import proofs.«149464_j34196529611289_2_alg».proof.Proof.Windows
import proofs.«149464_j34196529611289_2_alg».proof.Proof.Payload

noncomputable section

namespace Cert.KernelIdeal.Whole

open Cert.KernelIdeal Cert.KernelIdeal.Gen Cert.KernelIdeal.Entry Cert.EdgeMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The result array: the edge network of the rows gathered by the destination and the source indices, the edge
    scalars, the two weight matrices and the two biases. -/
def result (c : Dev nD) : S640000x128.Idx → EReal :=
  out (gathered (m ((c.tc : Thread nD τ).loc main_arg0)) (m ((c.tc : Thread nD τ).loc main_arg3)))
    (gathered (m ((c.tc : Thread nD τ).loc main_arg0)) (m ((c.tc : Thread nD τ).loc main_arg2)))
    (m ((c.tc : Thread nD τ).loc main_arg1)) (m ((c.tc : Thread nD τ).loc main_arg4)) (m ((c.tc : Thread nD τ).loc main_arg5))
    (m ((c.tc : Thread nD τ).loc main_arg6)) (m ((c.tc : Thread nD τ).loc main_arg7))

/-- Entry `j` of what point `t` computes is the result at row `6400 t + j₀`, column `j₁`. -/
theorem point_eq (c : Dev nD) (t : Fin cfg0.N) (j : S6400x128.Idx) (i : S640000x128.Idx)
    (h0 : (i 0).val = t.val * 6400 + (j 0).val) (h1 : (i 1).val = (j 1).val) :
    k0_pay1 (F := Ideal) (iblk m c 0 t) (iblk m c 1 t) (iblk m c 3 t) (iblk m c 4 t) (iblk m c 2 t) (iblk m c 5 t)
      (iblk m c 6 t) (iblk m c 7 t) (iblk m c 8 t) j = result m c i := by
  obtain ⟨p, q, rfl⟩ : ∃ (p : Fin 6400) (q : Fin 128), j = ix2 p q := ⟨j 0, j 1, eq_ix2 j⟩
  obtain ⟨e, q', rfl⟩ : ∃ (e : Fin 640000) (q' : Fin 128), i = ix2 e q' := ⟨i 0, i 1, eq_ix2 i⟩
  have hq : q' = q := Fin.ext h1
  subst hq
  have he : e.val = t.val * 6400 + p.val := h0
  refine (Body.pay_apply (iblk m c 0 t) (iblk m c 1 t) (iblk m c 3 t) (iblk m c 4 t) (iblk m c 2 t) (iblk m c 5 t)
    (iblk m c 6 t) (iblk m c 7 t) (iblk m c 8 t) p q').trans ?_
  unfold result
  rw [out_apply]
  unfold blockOut outAt blockHidden Cert.EdgeMlp.hidden
  simp only [fun a => blk0_apply m c t p a e he, fun a => blk1_apply m c t p a e he, blk2_apply m c t p e he,
    blk3_apply m c t, blk4_apply m c t, blk5_apply m c t, blk6_apply m c t, blk7_apply m c t, blk8_apply m c t]

/-- What point `t` writes back is block `t` of `result`. -/
theorem flushed_eq (c : Dev nD) (t : Fin cfg0.N) :
    (dats m 0 c).flushed 9 t = ((cfg0.win 9).blk t).view.read (Elt Ideal) (result m c) := by
  rw [Value.flushed9]
  unfold Gen.out0_9
  rw [View.canon_unit_zero origin]
  simp only [View.ld_unit_zero (S := S6400x128) origin, View.ld_unit_zero (S := S128x192) origin,
    View.ld_unit_zero (S := S6400x1) origin, View.ld_unit_zero (S := S1x192) origin,
    View.ld_unit_zero (S := S192x128) origin, View.ld_unit_zero (S := S1x128) origin]
  obtain ⟨-, -, -, -, -, -, -, -, -, ⟨h0, h1⟩⟩ := idx_facts t
  funext j
  show k0_pay1 (F := Ideal) (iblk m c 0 t) (iblk m c 1 t) (iblk m c 3 t) (iblk m c 4 t) (iblk m c 2 t) (iblk m c 5 t)
      (iblk m c 6 t) (iblk m c 7 t) (iblk m c 8 t) j = result m c (((cfg0.win 9).blk t).view.emb j)
  refine point_eq m c t j (((cfg0.win 9).blk t).view.emb j) ?_ ?_
  · show win0_9.index t (0 : Fin 2) * 6400 + 1 * (j 0).val = t.val * 6400 + (j 0).val
    rw [h0]; omega
  · show win0_9.index t (1 : Fin 2) * 128 + 1 * (j 1).val = (j 1).val
    rw [h1]; omega

/-- An index of the result array lies in point `t`'s block iff each coordinate is in the block's range on its axis. -/
theorem mem_blk (t : Fin cfg0.N) (i : S640000x128.Idx) :
    i ∈ ((cfg0.win 9).blk t).view.set ↔ ∀ a : Fin 2, win0_9.index t a * S6400x128.size a ≤ (i a).val
      ∧ (i a).val < win0_9.index t a * S6400x128.size a + S6400x128.size a := by
  show i ∈ ((View.whole main_v25).slice (win0_9.rect t)).set ↔ _
  rw [View.set_slice_whole, Rect.mem_set_unit]
  exact Iff.rfl

/-- Every row of the result is written: row `r` by point `r / 6400`. -/
theorem cover (i : S640000x128.Idx) :
    ∃ t : Fin cfg0.N, (cfg0.win 9).flush t = true ∧ i ∈ ((cfg0.win 9).blk t).view.set := by
  have hi0 : (i 0).val < 640000 := (i 0).isLt
  have hi1 : (i 1).val < 128 := (i 1).isLt
  have hN : cfg0.N = 100 := N_0
  have ht : (i 0).val / 6400 < cfg0.N := by rw [hN]; omega
  obtain ⟨-, -, -, -, -, -, -, -, -, ⟨h0, h1⟩⟩ := idx_facts ⟨(i 0).val / 6400, ht⟩
  refine ⟨⟨(i 0).val / 6400, ht⟩, flush0_9 _, ?_⟩
  rw [mem_blk]
  intro a
  match a with
  | ⟨0, _⟩ =>
    show win0_9.index ⟨(i 0).val / 6400, ht⟩ (0 : Fin 2) * 6400 ≤ (i 0).val
      ∧ (i 0).val < win0_9.index ⟨(i 0).val / 6400, ht⟩ (0 : Fin 2) * 6400 + 6400
    rw [h0]
    show (i 0).val / 6400 * 6400 ≤ (i 0).val ∧ (i 0).val < (i 0).val / 6400 * 6400 + 6400
    omega
  | ⟨1, _⟩ =>
    show win0_9.index ⟨(i 0).val / 6400, ht⟩ (1 : Fin 2) * 128 ≤ (i 1).val
      ∧ (i 1).val < win0_9.index ⟨(i 0).val / 6400, ht⟩ (1 : Fin 2) * 128 + 128
    rw [h1]
    omega

/-- The result array after the run. -/
theorem final (c : Dev nD) : (dats m 0 c).arrAt 9 cfg0.N = result m c :=
  (dats m 0 c).arrAt_eq_of_cover 9 (result m c) (fun t _ => flushed_eq m c t) cover

/-- Every weakly fair execution of the kernel's program ends with the result array at `result` and the arguments
    unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefValue.lean ====
/-
  The reference, read at an entry.

  The reference lays, for each edge, the gathered destination row, the gathered source row and the edge scalar side
  by side in one row of 257 numbers, multiplies by the whole first weight matrix, adds the bias, rectifies, multiplies
  by the second weight matrix, adds its bias and applies tanh. Column `c` of the joined row comes from the first piece
  for `c < 128`, from the second for `128 ≤ c < 256` and from the scalar for `c = 256`; so the 257-term sum of the first
  product splits into the two 128-term sums and the single last term of `Cert.EdgeMlp.hidden`, and the reference's
  result is `Cert.EdgeMlp.out` of the two gathered arrays.
-/
import proofs.«149464_j34196529611289_2_alg».proof.Proof.Gen.ReferenceIdeal.Read
import proofs.«149464_j34196529611289_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Cert.EdgeMlp Idealize.ShloMosaic Idealize.ShloMosaic.ValueIdx

/-! ## The joined row, column by column -/

section Joined
variable {α : Type} (A B : S640000x128.Idx → α) (C : S640000x1.Idx → α)
  (h : Shape.Concatenates [S640000x128, S640000x128, S640000x1] S640000x257 1)

/-- Columns 0 … 127 of the joined row are the first piece. -/
theorem joined_lo (e : Fin 640000) (a : Fin 128) :
    concatenate S640000x257 1 [⟨S640000x128, A⟩, ⟨S640000x128, B⟩, ⟨S640000x1, C⟩] h (ix2 e (rowLo a)) = A (ix2 e a) :=
  concatenate_apply_piece 1 [⟨S640000x128, A⟩, ⟨S640000x128, B⟩, ⟨S640000x1, C⟩] h (ix2 e (rowLo a)) 0 (show (0 : ℕ) < 3 by omega) S640000x128 A rfl rfl 0 rfl (ix2 e a)
    (fun b => match b with
      | ⟨0, _⟩ => fun _ => rfl
      | ⟨1, _⟩ => fun hb => absurd rfl hb)
    (Nat.zero_add _)

/-- Columns 128 … 255 of the joined row are the second piece. -/
theorem joined_mid (e : Fin 640000) (a : Fin 128) :
    concatenate S640000x257 1 [⟨S640000x128, A⟩, ⟨S640000x128, B⟩, ⟨S640000x1, C⟩] h (ix2 e (rowMid a)) = B (ix2 e a) :=
  concatenate_apply_piece 1 [⟨S640000x128, A⟩, ⟨S640000x128, B⟩, ⟨S640000x1, C⟩] h (ix2 e (rowMid a)) 1 (show (1 : ℕ) < 3 by omega) S640000x128 B rfl rfl 128 rfl (ix2 e a)
    (fun b => match b with
      | ⟨0, _⟩ => fun _ => rfl
      | ⟨1, _⟩ => fun hb => absurd rfl hb)
    rfl

/-- Column 256 of the joined row is the third piece, one column wide. -/
theorem joined_last (e : Fin 640000) :
    concatenate S640000x257 1 [⟨S640000x128, A⟩, ⟨S640000x128, B⟩, ⟨S640000x1, C⟩] h (ix2 e rowLast) = C (ix2 e (0 : Fin 1)) :=
  concatenate_apply_piece 1 [⟨S640000x128, A⟩, ⟨S640000x128, B⟩, ⟨S640000x1, C⟩] h (ix2 e rowLast) 2 (show (2 : ℕ) < 3 by omega) S640000x1 C rfl rfl 256 rfl (ix2 e (0 : Fin 1))
    (fun b => match b with
      | ⟨0, _⟩ => fun _ => rfl
      | ⟨1, _⟩ => fun hb => absurd rfl hb)
    rfl

end Joined

/-! ## The composed index maps, at an index given by coordinates -/

theorem lidx21 (e : Fin 640000) (q : Fin 128) (k : Fin 192) : lidx_main_v21 (ix2 e q) k = ix2 e k :=
  funext fun a => Fin.ext (by match a with | ⟨0, _⟩ => rfl | ⟨1, _⟩ => rfl)
theorem ridx21 (e : Fin 640000) (q : Fin 128) (k : Fin 192) : ridx_main_v21 (ix2 e q) k = ix2 k q :=
  funext fun a => Fin.ext (by match a with | ⟨0, _⟩ => rfl | ⟨1, _⟩ => rfl)
theorem bias2_idx (e : Fin 640000) (q : Fin 128) : idx_main_v22 (idx_main_v23 (ix2 e q)) = ix1 q :=
  funext fun a => Fin.ext (by match a with | ⟨0, _⟩ => rfl)
theorem lidx16 (e : Fin 640000) (k : Fin 192) (a : Fin 257) : lidx_main_v16 (ix2 e k) a = ix2 e a :=
  funext fun x => Fin.ext (by match x with | ⟨0, _⟩ => rfl | ⟨1, _⟩ => rfl)
theorem ridx16 (e : Fin 640000) (k : Fin 192) (a : Fin 257) : ridx_main_v16 (ix2 e k) a = ix2 a k :=
  funext fun x => Fin.ext (by match x with | ⟨0, _⟩ => rfl | ⟨1, _⟩ => rfl)
theorem bias1_idx (e : Fin 640000) (k : Fin 192) : idx_main_v17 (idx_main_v18 (ix2 e k)) = ix1 k :=
  funext fun a => Fin.ext (by match a with | ⟨0, _⟩ => rfl)
theorem column_idx (e : Fin 640000) : idx_main_v14 (ix2 e (0 : Fin 1)) = ix1 e :=
  funext fun a => Fin.ext (by match a with | ⟨0, _⟩ => rfl)

/-! ## The reference's hidden layer and result -/

variable (x0 : (⟨S100000x128, .f32⟩ : BufTy).Contents (Elt Ideal)) (x1 : (⟨S640000, .f32⟩ : BufTy).Contents (Elt Ideal))
  (x2 x3 : (⟨S640000, .i32⟩ : BufTy).Contents (Elt Ideal)) (x4 : (⟨S257x192, .f32⟩ : BufTy).Contents (Elt Ideal))
  (x5 : (⟨S192, .f32⟩ : BufTy).Contents (Elt Ideal)) (x6 : (⟨S192x128, .f32⟩ : BufTy).Contents (Elt Ideal))
  (x7 : (⟨S128, .f32⟩ : BufTy).Contents (Elt Ideal))

/-- The reference's rectified hidden layer at `(e, k)`: the 257-term sum of the one product with the whole first
    weight matrix, split into the destination band, the source band and the scalar's term. -/
theorem hidden_eq (e : Fin 640000) (k : Fin 192) :
    val_main_v20 (F := Ideal) x0 x1 x2 x3 x4 x5 (ix2 e k)
      = hidden (val_main_v6 (F := Ideal) x0 x3) (val_main_v13 (F := Ideal) x0 x2) x1 x4 x5 e k := by
  rw [val_main_v20_apply, val_main_v19_apply, val_main_v16_apply, val_main_v18_apply, val_main_v17_apply,
    val_main_call0_v0_apply, val_main_call0_cst_apply]
  simp only [lidx16, ridx16, bias1_idx]
  rw [sum_257_split]
  unfold val_main_v15
  simp only [joined_lo, joined_mid, joined_last, val_main_v14_apply, column_idx]
  rfl

/-- The reference's result is `out` of the two gathered arrays and the other arguments. -/
theorem result_eq :
    val_main_v25 (F := Ideal) x0 x1 x2 x3 x4 x5 x6 x7
      = out (val_main_v6 (F := Ideal) x0 x3) (val_main_v13 (F := Ideal) x0 x2) x1 x4 x5 x6 x7 := by
  funext i
  obtain ⟨e, q, rfl⟩ : ∃ (e : Fin 640000) (q : Fin 128), i = ix2 e q := ⟨i 0, i 1, eq_ix2 i⟩
  rw [out_apply, val_main_v25_apply, val_main_v24_apply, val_main_v21_apply, val_main_v23_apply, val_main_v22_apply]
  simp only [lidx21, ridx21, bias2_idx, hidden_eq]
  rfl

end Cert.ReferenceIdeal.RefValue

end
-- ==== Proof.lean ====
/-
  An edge network over a graph: for each of 640000 edges, the feature rows (128 numbers) of its destination and source
  nodes are gathered, and `tanh (relu ([dst row, src row, edge scalar] · W1 + b1) · W2 + b2)` is computed.

  The kernel tiles the edges in 100 blocks of 6400 and never forms the joined row of 257 numbers: it multiplies the
  destination rows by rows 0 … 127 of `W1`, the source rows by rows 128 … 255, adds the edge scalar times row 256, and
  continues as the reference does. Over the extended reals, where every change of float format is the identity and a
  matrix product is the plain sum over the contracted coordinate, the two programs compute one function: the reference's
  257-term sum splits into the kernel's two 128-term sums and one last term, which only reorders and regroups an
  addition and so needs no finiteness of the inputs. Both programs gather with the same wrapped indices, so the
  gathered arrays are one term on both sides and are never opened.

  Parts: `Spec` (the function and the splitting of the sum), `Payload` (what one grid point computes from its blocks),
  `Entry` and `Windows` (the blocks in terms of the arguments), `KernelValue` (the kernel's result array),
  `RefValue` (the reference's result array). The three frames are the generated ones (the reference's is its run with
  the result dropped); no operation was rewritten by the idealization, so there is nothing to preserve.
-/
import proofs.«149464_j34196529611289_2_alg».proof.Defs
import proofs.«149464_j34196529611289_2_alg».proof.Proof.Gen.Kernel
import proofs.«149464_j34196529611289_2_alg».proof.Proof.Gen.Kernel.Skeleton
import proofs.«149464_j34196529611289_2_alg».proof.Proof.Gen.Kernel.Launch
import proofs.«149464_j34196529611289_2_alg».proof.Proof.Gen.Kernel.Points
import proofs.«149464_j34196529611289_2_alg».proof.Proof.Gen.Kernel.Frame
import proofs.«149464_j34196529611289_2_alg».proof.Proof.Gen.KernelIdeal
import proofs.«149464_j34196529611289_2_alg».proof.Proof.Gen.KernelIdeal.Skeleton
import proofs.«149464_j34196529611289_2_alg».proof.Proof.Gen.KernelIdeal.Launch
import proofs.«149464_j34196529611289_2_alg».proof.Proof.Gen.KernelIdeal.Points
import proofs.«149464_j34196529611289_2_alg».proof.Proof.Gen.KernelIdeal.Frame
import proofs.«149464_j34196529611289_2_alg».proof.Proof.Gen.ReferenceIdeal
import proofs.«149464_j34196529611289_2_alg».proof.Proof.Gen.Pre_finite_inputs
import proofs.«149464_j34196529611289_2_alg».proof.Proof.Gen.KernelIdeal.Value
import proofs.«149464_j34196529611289_2_alg».proof.Proof.Gen.ReferenceIdeal.Run
import proofs.«149464_j34196529611289_2_alg».proof.Proof.Gen.ReferenceIdeal.Read
import proofs.«149464_j34196529611289_2_alg».proof.Proof.KernelValue
import proofs.«149464_j34196529611289_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's program and the reference gather the rows of the node features with the same wrapped indices: the
    destination rows are one term in both. -/
theorem gathered_dst (h : Cert.KernelIdeal.S100000x128.Idx → EReal) (x : IVec Cert.KernelIdeal.S640000 32) :
    Cert.ReferenceIdeal.Read.val_main_v6 (F := Ideal) h x = Cert.KernelIdeal.Entry.gathered h x := rfl

/-- And so are the source rows. -/
theorem gathered_src (h : Cert.KernelIdeal.S100000x128.Idx → EReal) (x : IVec Cert.KernelIdeal.S640000 32) :
    Cert.ReferenceIdeal.Read.val_main_v13 (F := Ideal) h x = Cert.KernelIdeal.Entry.gathered h x := rfl

/-- From memories that agree on the arguments both idealized programs end with the result array at
    `Cert.KernelIdeal.Whole.result`: the kernel's by its value (`KernelValue`), the reference's by its generated run
    read as `Cert.EdgeMlp.out` (`RefValue`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v25_eq, Cert.ReferenceIdeal.RefValue.result_eq, a0, a1, a2, a3, a4, a5, a6, a7,
    gathered_dst, gathered_src]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
